-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S5000x128 : Shape := ⟨2, ![5000, 128]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 172
  | .vmem => 30
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x128, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x64, .f32⟩
  | 122 => ⟨S_, .f32⟩
  | 123 => ⟨S100000, .f32⟩
  | 124 => ⟨S1700000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .i1⟩
  | 1 => ⟨S100000, .f32⟩
  | 2 => ⟨S_, .f32⟩
  | 3 => ⟨S_, .f32⟩
  | 4 => ⟨S100000, .f32⟩
  | 5 => ⟨S100000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000, .f32⟩
  | 15 => ⟨S1700000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000, .f32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x64, .f32⟩
  | 35 => ⟨S1700000x1, .f32⟩
  | 36 => ⟨S1700000x64, .f32⟩
  | 37 => ⟨S1700000x64, .f32⟩
  | 38 => ⟨S_, .f32⟩
  | 39 => ⟨S100000x64, .f32⟩
  | 40 => ⟨S1700000x1, .i32⟩
  | 41 => ⟨S100000x64, .f32⟩
  | 42 => ⟨S1x64, .f32⟩
  | 43 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_call1_v0 : Ref sig .tc := ⟨.hbm, 80, rfl⟩
abbrev main_call1_v1 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_call2_v0 : Ref sig .tc := ⟨.hbm, 131, rfl⟩
abbrev main_call2_v1 : Ref sig .tc := ⟨.hbm, 132, rfl⟩
abbrev main_v94 : Ref sig .tc := ⟨.hbm, 133, rfl⟩
abbrev main_c_22 : Ref sig .tc := ⟨.hbm, 134, rfl⟩
abbrev main_v95 : Ref sig .tc := ⟨.hbm, 135, rfl⟩
abbrev main_v96 : Ref sig .tc := ⟨.hbm, 136, rfl⟩
abbrev main_c_23 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_24 : Ref sig .tc := ⟨.hbm, 144, rfl⟩
abbrev main_v103 : Ref sig .tc := ⟨.hbm, 145, rfl⟩
abbrev main_v104 : Ref sig .tc := ⟨.hbm, 146, rfl⟩
abbrev main_c_25 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_26 : Ref sig .tc := ⟨.hbm, 154, rfl⟩
abbrev main_v111 : Ref sig .tc := ⟨.hbm, 155, rfl⟩
abbrev main_v112 : Ref sig .tc := ⟨.hbm, 156, rfl⟩
abbrev main_c_27 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_28 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v123) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x128, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x64, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x64, .f32⟩
  | 43 => ⟨S1700000x1, .f32⟩
  | 44 => ⟨S1700000x64, .f32⟩
  | 45 => ⟨S1700000x64, .f32⟩
  | 46 => ⟨S_, .f32⟩
  | 47 => ⟨S100000x64, .f32⟩
  | 48 => ⟨S1700000x1, .i32⟩
  | 49 => ⟨S100000x64, .f32⟩
  | 50 => ⟨S1x64, .f32⟩
  | 51 => ⟨S100000x64, .f32⟩
  | 52 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_call4_v0 : Ref sig .tc := ⟨.hbm, 139, rfl⟩
abbrev main_call4_v1 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_c_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_24 : Ref sig .tc := ⟨.hbm, 152, rfl⟩
abbrev main_v107 : Ref sig .tc := ⟨.hbm, 153, rfl⟩
abbrev main_v108 : Ref sig .tc := ⟨.hbm, 154, rfl⟩
abbrev main_c_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_26 : Ref sig .tc := ⟨.hbm, 162, rfl⟩
abbrev main_v115 : Ref sig .tc := ⟨.hbm, 163, rfl⟩
abbrev main_v116 : Ref sig .tc := ⟨.hbm, 164, rfl⟩
abbrev main_c_27 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named.

  The program is six kernel launches among stretches of host operations. Its run is read as a fold of the device's
  buffer contents through those sixteen segments: a host stretch applies its operations in order, a launch replaces
  its output array by what its grid points write back and leaves every other buffer alone. The fold's last stage is the
  contents at return. Every weakly fair execution terminates without a fault in a state whose unscoped buffers hold
  exactly that last stage; so the result buffer holds the last stage's value at it, and each argument array, which no
  segment writes, holds what it was launched with.
-/
import proofs.«137574_j45131516346758_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    last stage and the nine argument arrays as launched. -/
theorem run_result : θ_run defs (onTc (τ := τ) (main (F := F))) ⟨m, fun _ => 0, ρ⟩ (fun r => ∀ c : Dev nD,
      r.2.mem ((c.tc : Thread nD τ).loc main_v125) = W16 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v125 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.Gcn.KernelRun

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.Region0.lean ====
/-
  The first dense transform: what the first launch leaves in its output array.

  The launch walks the 100000 rows of its left operand in twenty blocks of 5000 rows; at each it loads the block and
  the whole 128 x 128 weight, multiplies them on the matrix unit into a zero accumulator, and writes the 5000 x 128
  product back as block t of the output. On the extended reals the rounding of the operands to a narrower format is
  the identity and the product's entry (r, q) is the sum over k of left (r, k) * weight (k, q). Row r of block t
  is row t * 5000 + r of the array, so every block is the restriction of ONE function of the two arrays as the launch
  finds them: the host's matrix product of the same two arrays, whose entry (R, q) is the same sum. The twenty
  blocks tile the rows, so the output array ends holding exactly that product.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibPlainMatmul
import proofs.«137574_j45131516346758_1_alg».proof.Proof.LibPlainDotGeneral
import Idealize.ShloMosaic.Lib.Pipeline.Value
import Idealize.ShloMosaic.Lib.ValueIdx

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's product of a 100000 x 128 array by a 128 x 128 weight: the function every block restricts. -/
abbrev prod (X : (⟨S100000x128, .f32⟩ : BufTy).Contents (Elt Ideal)) (w : (⟨S128x128, .f32⟩ : BufTy).Contents (Elt Ideal)) :
    (⟨S100000x128, .f32⟩ : BufTy).Contents (Elt Ideal) :=
  Host.dotGeneral (F := Ideal) (φ₁ := .f32) (φ₂ := .f32) Cert.ReferenceIdeal.dot_S100000x128_S128x128_S100000x128_1_0_0_1_n_n none X w

/-- The body's stored value at (r, q): the row of the block against the column of the weight. -/
theorem pay_apply (xb : FVec Ideal S5000x128 .f32) (wb : FVec Ideal S128x128 .f32) (r : Fin 5000) (q : Fin 128) :
    k0_pay1 (F := Ideal) xb wb (ix2 r q) = ∑ k : Fin 128, xb (ix2 r k) * wb (ix2 k q) := by
  unfold k0_pay1
  exact Cert.Lib.PlainMatmul.matmul_zero_apply dot_S5000x128_S128x128_S5000x128_1_0_0_1_n_n rfl rfl rfl rfl rfl rfl none _ _ r q

/-- The host's product at (R, q): the same sum over the whole array's row. -/
theorem prod_apply (X : FVec Ideal S100000x128 .f32) (w : FVec Ideal S128x128 .f32) (R : Fin 100000) (q : Fin 128) :
    prod X w (ix2 R q) = ∑ k : Fin 128, X (ix2 R k) * w (ix2 k q) :=
  Cert.Lib.PlainDotGeneral.dotGeneral_apply Cert.ReferenceIdeal.dot_S100000x128_S128x128_S100000x128_1_0_0_1_n_n rfl rfl rfl rfl rfl rfl none .single X w R q

/-- A block that holds rows b * 5000 … of X, against the whole weight, stores those rows of the product. -/
theorem block_eq (X : FVec Ideal S100000x128 .f32) (w : FVec Ideal S128x128 .f32)
    (xb : FVec Ideal S5000x128 .f32) (wb : FVec Ideal S128x128 .f32) (R : Fin 100000) (r : Fin 5000) (q : Fin 128)
    (hx : ∀ k : Fin 128, xb (ix2 r k) = X (ix2 R k))
    (hw : ∀ k : Fin 128, wb (ix2 k q) = w (ix2 k q)) :
    k0_pay1 (F := Ideal) xb wb (ix2 r q) = prod X w (ix2 R q) := by
  rw [pay_apply, prod_apply]
  exact Finset.sum_congr rfl fun k _ => by rw [hx k, hw k]

/-- The printed index maps over the grid: the left operand's and the output's block t is row block t, column block 0;
    the weight's block is always the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 20, ∃ t : Fin cfg0.N, t.val = q0.val :=
  (by decide +kernel : ∀ q0 : Fin 20, ∃ t : Fin grid0.N, t.val = q0.val)

/-- What point t writes back is block t of the product of the two arrays as the launch finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have ht : t.val < 20 := Nat.lt_of_lt_of_eq t.isLt N_0
  show k0_pay1 (F := Ideal) (iblk0 V c 0 t) (iblk0 V c 1 t) (ix2 r q)
    = prod (V c main_arg0) (V c main_arg3) (((cfg0.win 2).blk t).view.emb (ix2 r q))
  have hout : ((cfg0.win 2).blk t).view.emb (ix2 r q) = ix2 (⟨t.val * 5000 + r.val, by omega⟩ : Fin 100000) q := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  rw [hout]
  refine block_eq (V c main_arg0) (V c main_arg3) (iblk0 V c 0 t) (iblk0 V c 1 t) ⟨t.val * 5000 + r.val, by omega⟩ r q ?_ ?_
  · intro k
    have hk : k.val < 128 := k.isLt
    show V c main_arg0 (((cfg0.win 0).blk t).view.emb (ix2 r k)) = V c main_arg0 (ix2 (⟨t.val * 5000 + r.val, by omega⟩ : Fin 100000) k)
    refine congrArg (V c main_arg0) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k
    have hk : k.val < 128 := k.isLt
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v9).slice (win0_2.rect t)).set ↔ _
  rw [View.set_slice_whole, Rect.mem_set_unit]
  exact Iff.rfl

/-- The twenty row blocks tile the array: row R is in block R / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the launch: the host's product of the two arrays the launch was entered with. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.Gcn.Region0

end
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.Region1.lean ====
/-
  The first epilogue: what the second launch leaves in its output array.

  The launch walks the 100000 rows of the aggregated features in twenty blocks of 5000 rows; at each it loads the
  block and the one-row bias, adds the bias row to every row of the block, takes the maximum with zero, and writes
  the block back as block t of the output. Entry (r, q) of what it stores is max (block (r, q) + bias (0, q)) 0, and
  row r of block t is row t * 5000 + r of the array, so every block is the restriction of ONE function of the two
  arrays as the launch finds them: the bias row repeated down the rows, added to the array, and the maximum with the
  zero array taken, as the host would compute it. The twenty blocks tile the rows, so the output array ends holding
  exactly that.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibHostRows
import Idealize.ShloMosaic.Lib.Pipeline.Value
import Idealize.ShloMosaic.Lib.ValueIdx
import Idealize.ShloMosaic.Lib.ValueLayout

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's bias add and rectifier on a 100000 x 128 array with a one-row bias: the function every block restricts. -/
abbrev biasRelu (A : (⟨S100000x128, .f32⟩ : BufTy).Contents (Elt Ideal)) (brow : (⟨S1x128, .f32⟩ : BufTy).Contents (Elt Ideal)) :
    (⟨S100000x128, .f32⟩ : BufTy).Contents (Elt Ideal) :=
  maximumf (addf A (broadcastInDim S100000x128 ![0, 1] Cert.ReferenceIdeal.Gen.bcast_S1x128_S100000x128_0_1 brow))
    (broadcastInDim S100000x128 ![] Cert.ReferenceIdeal.Gen.bcast_S_S100000x128 (constant (F := Ideal) S_ .f32 0x00000000#32))

/-- The body's stored value at (r, q). -/
theorem pay_apply (ab : FVec Ideal S5000x128 .f32) (bb : FVec Ideal S1x128 .f32) (r : Fin 5000) (q : Fin 128) :
    k1_pay1 (F := Ideal) ab bb (ix2 r q) = max (ab (ix2 r q) + bb (ix2 (0 : Fin 1) q)) (Ideal.ofBits .f32 0x00000000#32) := by
  unfold k1_pay1
  show max (shapeCast S5000x128 ab shapeCasts_S5000x128_S5000x128 (ix2 r q)
      + broadcastTo S5000x128 (shapeCast S1x128 bb shapeCasts_S1x128_S1x128) broadcasts_S1x128_S5000x128 (ix2 r q)) _ = _
  rw [shapeCast_self, shapeCast_self, broadcastTo_1b_ab_apply]
  rfl

/-- The host's function at (R, q). -/
theorem biasRelu_apply (A : FVec Ideal S100000x128 .f32) (brow : FVec Ideal S1x128 .f32) (R : Fin 100000) (q : Fin 128) :
    biasRelu A brow (ix2 R q) = max (A (ix2 R q) + brow (ix2 (0 : Fin 1) q)) (Ideal.ofBits .f32 0x00000000#32) := by
  show max (A (ix2 R q) + broadcastInDim S100000x128 ![0, 1] Cert.ReferenceIdeal.Gen.bcast_S1x128_S100000x128_0_1 brow (ix2 R q))
    (broadcastInDim S100000x128 ![] Cert.ReferenceIdeal.Gen.bcast_S_S100000x128 (constant (F := Ideal) S_ .f32 0x00000000#32) (ix2 R q)) = _
  rw [Cert.Lib.HostRows.bcast_1b_ab_apply,
    broadcastInDim_apply ![] Cert.ReferenceIdeal.Gen.bcast_S_S100000x128 (constant (F := Ideal) S_ .f32 0x00000000#32) (ix2 R q) ix0 (fun a => a.elim0)]
  rfl

/-- A block that holds rows of A from row R on, against the whole bias row, stores that row of the host's function. -/
theorem block_eq (A : FVec Ideal S100000x128 .f32) (brow : FVec Ideal S1x128 .f32)
    (ab : FVec Ideal S5000x128 .f32) (bb : FVec Ideal S1x128 .f32) (R : Fin 100000) (r : Fin 5000) (q : Fin 128)
    (ha : ab (ix2 r q) = A (ix2 R q)) (hb : bb (ix2 (0 : Fin 1) q) = brow (ix2 (0 : Fin 1) q)) :
    k1_pay1 (F := Ideal) ab bb (ix2 r q) = biasRelu A brow (ix2 R q) := by
  rw [pay_apply, biasRelu_apply, ha, hb]

/-- The printed index maps over the grid: the aggregate's and the output's block t is row block t, column block 0;
    the bias row's block is always the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto : ∀ q0 : Fin 20, ∃ t : Fin cfg1.N, t.val = q0.val :=
  (by decide +kernel : ∀ q0 : Fin 20, ∃ t : Fin grid1.N, t.val = q0.val)

/-- What point t writes back is block t of the host's function of the two arrays as the launch finds them. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have ht : t.val < 20 := Nat.lt_of_lt_of_eq t.isLt N_1
  show k1_pay1 (F := Ideal) (iblk1 V c 0 t) (iblk1 V c 1 t) (ix2 r q)
    = biasRelu (V c main_v45) (V c main_v46) (((cfg1.win 2).blk t).view.emb (ix2 r q))
  have hout : ((cfg1.win 2).blk t).view.emb (ix2 r q) = ix2 (⟨t.val * 5000 + r.val, by omega⟩ : Fin 100000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  rw [hout]
  refine block_eq (V c main_v45) (V c main_v46) (iblk1 V c 0 t) (iblk1 V c 1 t) ⟨t.val * 5000 + r.val, by omega⟩ r q ?_ ?_
  · show V c main_v45 (((cfg1.win 0).blk t).view.emb (ix2 r q)) = V c main_v45 (ix2 (⟨t.val * 5000 + r.val, by omega⟩ : Fin 100000) q)
    refine congrArg (V c main_v45) (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * q.val = q.val; omega
  · show V c main_v46 (((cfg1.win 1).blk t).view.emb (ix2 (0 : Fin 1) q)) = V c main_v46 (ix2 (0 : Fin 1) q)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The twenty row blocks tile the array: row R is in block R / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the launch: the host's bias add and rectifier of the two arrays the launch was entered with. -/
theorem final (c : Dev nD) : (dat1 V c).arrAt 2 cfg1.N = biasRelu (V c main_v45) (V c main_v46) :=
  (dat1 V c).arrAt_eq_of_cover 2 (biasRelu (V c main_v45) (V c main_v46)) (fun t _ => flushed_eq V c t) cover

end Cert.Gcn.Region1

end
-- ==== Proof.Region2.lean ====
/-
  The second dense transform: what the third launch leaves in its output array.

  The launch walks the 100000 rows of its left operand in twenty blocks of 5000 rows; at each it loads the block and
  the whole 128 x 128 weight, multiplies them on the matrix unit into a zero accumulator, and writes the 5000 x 128
  product back as block t of the output. On the extended reals the rounding of the operands to a narrower format is
  the identity (as is the reshape of the block to its own shape) and the product's entry (r, q) is the sum over k of left (r, k) * weight (k, q). Row r of block t
  is row t * 5000 + r of the array, so every block is the restriction of ONE function of the two arrays as the launch
  finds them: the host's matrix product of the same two arrays, whose entry (R, q) is the same sum. The twenty
  blocks tile the rows, so the output array ends holding exactly that product.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibPlainMatmul
import proofs.«137574_j45131516346758_1_alg».proof.Proof.LibPlainDotGeneral
import Idealize.ShloMosaic.Lib.Pipeline.Value
import Idealize.ShloMosaic.Lib.ValueIdx

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's product of a 100000 x 128 array by a 128 x 128 weight: the function every block restricts. -/
abbrev prod (X : (⟨S100000x128, .f32⟩ : BufTy).Contents (Elt Ideal)) (w : (⟨S128x128, .f32⟩ : BufTy).Contents (Elt Ideal)) :
    (⟨S100000x128, .f32⟩ : BufTy).Contents (Elt Ideal) :=
  Host.dotGeneral (F := Ideal) (φ₁ := .f32) (φ₂ := .f32) Cert.ReferenceIdeal.dot_S100000x128_S128x128_S100000x128_1_0_0_1_n_n none X w

/-- The body's stored value at (r, q): the row of the block against the column of the weight. -/
theorem pay_apply (xb : FVec Ideal S5000x128 .f32) (wb : FVec Ideal S128x128 .f32) (r : Fin 5000) (q : Fin 128) :
    k2_pay1 (F := Ideal) xb wb (ix2 r q) = ∑ k : Fin 128, xb (ix2 r k) * wb (ix2 k q) := by
  unfold k2_pay1
  refine (Cert.Lib.PlainMatmul.matmul_zero_apply dot_S5000x128_S128x128_S5000x128_1_0_0_1_n_n rfl rfl rfl rfl rfl rfl none
    (truncf .bf16 (shapeCast S5000x128 xb shapeCasts_S5000x128_S5000x128) bitsLt_bf16_f32) (truncf .bf16 wb bitsLt_bf16_f32) r q).trans ?_
  refine Finset.sum_congr rfl fun k _ => ?_
  show shapeCast S5000x128 xb shapeCasts_S5000x128_S5000x128 (ix2 r k) * wb (ix2 k q) = _
  rw [shapeCast_self]

/-- The host's product at (R, q): the same sum over the whole array's row. -/
theorem prod_apply (X : FVec Ideal S100000x128 .f32) (w : FVec Ideal S128x128 .f32) (R : Fin 100000) (q : Fin 128) :
    prod X w (ix2 R q) = ∑ k : Fin 128, X (ix2 R k) * w (ix2 k q) :=
  Cert.Lib.PlainDotGeneral.dotGeneral_apply Cert.ReferenceIdeal.dot_S100000x128_S128x128_S100000x128_1_0_0_1_n_n rfl rfl rfl rfl rfl rfl none .single X w R q

/-- A block that holds rows b * 5000 … of X, against the whole weight, stores those rows of the product. -/
theorem block_eq (X : FVec Ideal S100000x128 .f32) (w : FVec Ideal S128x128 .f32)
    (xb : FVec Ideal S5000x128 .f32) (wb : FVec Ideal S128x128 .f32) (R : Fin 100000) (r : Fin 5000) (q : Fin 128)
    (hx : ∀ k : Fin 128, xb (ix2 r k) = X (ix2 R k))
    (hw : ∀ k : Fin 128, wb (ix2 k q) = w (ix2 k q)) :
    k2_pay1 (F := Ideal) xb wb (ix2 r q) = prod X w (ix2 R q) := by
  rw [pay_apply, prod_apply]
  exact Finset.sum_congr rfl fun k _ => by rw [hx k, hw k]

/-- The printed index maps over the grid: the left operand's and the output's block t is row block t, column block 0;
    the weight's block is always the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q0 : Fin 20, ∃ t : Fin cfg2.N, t.val = q0.val :=
  (by decide +kernel : ∀ q0 : Fin 20, ∃ t : Fin grid2.N, t.val = q0.val)

/-- What point t writes back is block t of the product of the two arrays as the launch finds them. -/
theorem flushed_eq (c : Dev nD) (t : Fin cfg2.N) :
    (dat2 V c).flushed 2 t = ((cfg2.win 2).blk t).view.read (Elt Ideal) (prod (V c main_v47) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have ht : t.val < 20 := Nat.lt_of_lt_of_eq t.isLt N_2
  show k2_pay1 (F := Ideal) (iblk2 V c 0 t) (iblk2 V c 1 t) (ix2 r q)
    = prod (V c main_v47) (V c main_arg5) (((cfg2.win 2).blk t).view.emb (ix2 r q))
  have hout : ((cfg2.win 2).blk t).view.emb (ix2 r q) = ix2 (⟨t.val * 5000 + r.val, by omega⟩ : Fin 100000) q := by
    funext a; apply Fin.ext
    match a with
    | ⟨0, _⟩ => show win2_2.index t (0 : Fin 2) * 5000 + 1 * r.val = t.val * 5000 + r.val; omega
    | ⟨1, _⟩ => show win2_2.index t (1 : Fin 2) * 128 + 1 * q.val = q.val; omega
  rw [hout]
  refine block_eq (V c main_v47) (V c main_arg5) (iblk2 V c 0 t) (iblk2 V c 1 t) ⟨t.val * 5000 + r.val, by omega⟩ r q ?_ ?_
  · intro k
    have hk : k.val < 128 := k.isLt
    show V c main_v47 (((cfg2.win 0).blk t).view.emb (ix2 r k)) = V c main_v47 (ix2 (⟨t.val * 5000 + r.val, by omega⟩ : Fin 100000) k)
    refine congrArg (V c main_v47) (funext fun a => Fin.ext ?_)
    match a with
    | ⟨0, _⟩ => show win2_0.index t (0 : Fin 2) * 5000 + 1 * r.val = t.val * 5000 + r.val; omega
    | ⟨1, _⟩ => show win2_0.index t (1 : Fin 2) * 128 + 1 * k.val = k.val; omega
  · intro k
    have hk : k.val < 128 := k.isLt
    show V c main_arg5 (((cfg2.win 1).blk t).view.emb (ix2 k q)) = V c main_arg5 (ix2 k q)
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The twenty row blocks tile the array: row R is in block R / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the launch: the host's product of the two arrays the launch was entered with. -/
theorem final (c : Dev nD) : (dat2 V c).arrAt 2 cfg2.N = prod (V c main_v47) (V c main_arg5) :=
  (dat2 V c).arrAt_eq_of_cover 2 (prod (V c main_v47) (V c main_arg5)) (fun t _ => flushed_eq V c t) cover

end Cert.Gcn.Region2

end
-- ==== Proof.Region3.lean ====
/-
  The second epilogue: what the fourth launch leaves in its output array.

  The launch walks the 100000 rows of the aggregated features in twenty blocks of 5000 rows; at each it loads the
  block and the one-row bias, adds the bias row to every row of the block, takes the maximum with zero, and writes
  the block back as block t of the output. Entry (r, q) of what it stores is max (block (r, q) + bias (0, q)) 0, and
  row r of block t is row t * 5000 + r of the array, so every block is the restriction of ONE function of the two
  arrays as the launch finds them: the bias row repeated down the rows, added to the array, and the maximum with the
  zero array taken, as the host would compute it. The twenty blocks tile the rows, so the output array ends holding
  exactly that.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibHostRows
import Idealize.ShloMosaic.Lib.Pipeline.Value
import Idealize.ShloMosaic.Lib.ValueIdx
import Idealize.ShloMosaic.Lib.ValueLayout

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's bias add and rectifier on a 100000 x 128 array with a one-row bias: the function every block restricts. -/
abbrev biasRelu (A : (⟨S100000x128, .f32⟩ : BufTy).Contents (Elt Ideal)) (brow : (⟨S1x128, .f32⟩ : BufTy).Contents (Elt Ideal)) :
    (⟨S100000x128, .f32⟩ : BufTy).Contents (Elt Ideal) :=
  maximumf (addf A (broadcastInDim S100000x128 ![0, 1] Cert.ReferenceIdeal.Gen.bcast_S1x128_S100000x128_0_1 brow))
    (broadcastInDim S100000x128 ![] Cert.ReferenceIdeal.Gen.bcast_S_S100000x128 (constant (F := Ideal) S_ .f32 0x00000000#32))

/-- The body's stored value at (r, q). -/
theorem pay_apply (ab : FVec Ideal S5000x128 .f32) (bb : FVec Ideal S1x128 .f32) (r : Fin 5000) (q : Fin 128) :
    k3_pay1 (F := Ideal) ab bb (ix2 r q) = max (ab (ix2 r q) + bb (ix2 (0 : Fin 1) q)) (Ideal.ofBits .f32 0x00000000#32) := by
  unfold k3_pay1
  show max (shapeCast S5000x128 ab shapeCasts_S5000x128_S5000x128 (ix2 r q)
      + broadcastTo S5000x128 (shapeCast S1x128 bb shapeCasts_S1x128_S1x128) broadcasts_S1x128_S5000x128 (ix2 r q)) _ = _
  rw [shapeCast_self, shapeCast_self, broadcastTo_1b_ab_apply]
  rfl

/-- The host's function at (R, q). -/
theorem biasRelu_apply (A : FVec Ideal S100000x128 .f32) (brow : FVec Ideal S1x128 .f32) (R : Fin 100000) (q : Fin 128) :
    biasRelu A brow (ix2 R q) = max (A (ix2 R q) + brow (ix2 (0 : Fin 1) q)) (Ideal.ofBits .f32 0x00000000#32) := by
  show max (A (ix2 R q) + broadcastInDim S100000x128 ![0, 1] Cert.ReferenceIdeal.Gen.bcast_S1x128_S100000x128_0_1 brow (ix2 R q))
    (broadcastInDim S100000x128 ![] Cert.ReferenceIdeal.Gen.bcast_S_S100000x128 (constant (F := Ideal) S_ .f32 0x00000000#32) (ix2 R q)) = _
  rw [Cert.Lib.HostRows.bcast_1b_ab_apply,
    broadcastInDim_apply ![] Cert.ReferenceIdeal.Gen.bcast_S_S100000x128 (constant (F := Ideal) S_ .f32 0x00000000#32) (ix2 R q) ix0 (fun a => a.elim0)]
  rfl

/-- A block that holds rows of A from row R on, against the whole bias row, stores that row of the host's function. -/
theorem block_eq (A : FVec Ideal S100000x128 .f32) (brow : FVec Ideal S1x128 .f32)
    (ab : FVec Ideal S5000x128 .f32) (bb : FVec Ideal S1x128 .f32) (R : Fin 100000) (r : Fin 5000) (q : Fin 128)
    (ha : ab (ix2 r q) = A (ix2 R q)) (hb : bb (ix2 (0 : Fin 1) q) = brow (ix2 (0 : Fin 1) q)) :
    k3_pay1 (F := Ideal) ab bb (ix2 r q) = biasRelu A brow (ix2 R q) := by
  rw [pay_apply, biasRelu_apply, ha, hb]

/-- The printed index maps over the grid: the aggregate's and the output's block t is row block t, column block 0;
    the bias row's block is always the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem idx_onto : ∀ q0 : Fin 20, ∃ t : Fin cfg3.N, t.val = q0.val :=
  (by decide +kernel : ∀ q0 : Fin 20, ∃ t : Fin grid3.N, t.val = q0.val)

/-- What point t writes back is block t of the host's function of the two arrays as the launch finds them. -/
theorem flushed_eq (c : Dev nD) (t : Fin cfg3.N) :
    (dat3 V c).flushed 2 t = ((cfg3.win 2).blk t).view.read (Elt Ideal) (biasRelu (V c main_v84) (V c main_v85)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  have hr : r.val < 5000 := r.isLt
  have hq : q.val < 128 := q.isLt
  have ht : t.val < 20 := Nat.lt_of_lt_of_eq t.isLt N_3
  show k3_pay1 (F := Ideal) (iblk3 V c 0 t) (iblk3 V c 1 t) (ix2 r q)
    = biasRelu (V c main_v84) (V c main_v85) (((cfg3.win 2).blk t).view.emb (ix2 r q))
  have hout : ((cfg3.win 2).blk t).view.emb (ix2 r q) = ix2 (⟨t.val * 5000 + r.val, by omega⟩ : Fin 100000) q := by
    funext a; apply Fin.ext
    match a with
    | ⟨0, _⟩ => show win3_2.index t (0 : Fin 2) * 5000 + 1 * r.val = t.val * 5000 + r.val; omega
    | ⟨1, _⟩ => show win3_2.index t (1 : Fin 2) * 128 + 1 * q.val = q.val; omega
  rw [hout]
  refine block_eq (V c main_v84) (V c main_v85) (iblk3 V c 0 t) (iblk3 V c 1 t) ⟨t.val * 5000 + r.val, by omega⟩ r q ?_ ?_
  · show V c main_v84 (((cfg3.win 0).blk t).view.emb (ix2 r q)) = V c main_v84 (ix2 (⟨t.val * 5000 + r.val, by omega⟩ : Fin 100000) q)
    refine congrArg (V c main_v84) (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * q.val = q.val; omega
  · show V c main_v85 (((cfg3.win 1).blk t).view.emb (ix2 (0 : Fin 1) q)) = V c main_v85 (ix2 (0 : Fin 1) q)
    refine congrArg (V c main_v85) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v86).slice (win3_2.rect t)).set ↔ _
  rw [View.set_slice_whole, Rect.mem_set_unit]
  exact Iff.rfl

/-- The twenty row blocks tile the array: row R is in block R / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the launch: the host's bias add and rectifier of the two arrays the launch was entered with. -/
theorem final (c : Dev nD) : (dat3 V c).arrAt 2 cfg3.N = biasRelu (V c main_v84) (V c main_v85) :=
  (dat3 V c).arrAt_eq_of_cover 2 (biasRelu (V c main_v84) (V c main_v85)) (fun t _ => flushed_eq V c t) cover

end Cert.Gcn.Region3

end
-- ==== Proof.Region4.lean ====
/-
  The third dense transform: what the fifth launch leaves in its output array.

  The launch walks the 100000 rows of its left operand in twenty blocks of 5000 rows; at each it loads the block and
  the whole 128 x 64 weight, multiplies them on the matrix unit into a zero accumulator, and writes the 5000 x 64
  product back as block t of the output. On the extended reals the rounding of the operands to a narrower format is
  the identity (as is the reshape of the block to its own shape) and the product's entry (r, q) is the sum over k of left (r, k) * weight (k, q). Row r of block t
  is row t * 5000 + r of the array, so every block is the restriction of ONE function of the two arrays as the launch
  finds them: the host's matrix product of the same two arrays, whose entry (R, q) is the same sum. The twenty
  blocks tile the rows, so the output array ends holding exactly that product.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibPlainMatmul
import proofs.«137574_j45131516346758_1_alg».proof.Proof.LibPlainDotGeneral
import Idealize.ShloMosaic.Lib.Pipeline.Value
import Idealize.ShloMosaic.Lib.ValueIdx

set_option maxRecDepth 16384

noncomputable section

namespace Cert.Gcn.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's product of a 100000 x 128 array by a 128 x 64 weight: the function every block restricts. -/
abbrev prod (X : (⟨S100000x128, .f32⟩ : BufTy).Contents (Elt Ideal)) (w : (⟨S128x64, .f32⟩ : BufTy).Contents (Elt Ideal)) :
    (⟨S100000x64, .f32⟩ : BufTy).Contents (Elt Ideal) :=
  Host.dotGeneral (F := Ideal) (φ₁ := .f32) (φ₂ := .f32) Cert.ReferenceIdeal.dot_S100000x128_S128x64_S100000x64_1_0_0_1_n_n none X w

/-- The body's stored value at (r, q): the row of the block against the column of the weight. -/
theorem pay_apply (xb : FVec Ideal S5000x128 .f32) (wb : FVec Ideal S128x64 .f32) (r : Fin 5000) (q : Fin 64) :
    k4_pay1 (F := Ideal) xb wb (ix2 r q) = ∑ k : Fin 128, xb (ix2 r k) * wb (ix2 k q) := by
  unfold k4_pay1
  refine (Cert.Lib.PlainMatmul.matmul_zero_apply dot_S5000x128_S128x64_S5000x64_1_0_0_1_n_n rfl rfl rfl rfl rfl rfl none
    (truncf .bf16 (shapeCast S5000x128 xb shapeCasts_S5000x128_S5000x128) bitsLt_bf16_f32) (truncf .bf16 wb bitsLt_bf16_f32) r q).trans ?_
  refine Finset.sum_congr rfl fun k _ => ?_
  show shapeCast S5000x128 xb shapeCasts_S5000x128_S5000x128 (ix2 r k) * wb (ix2 k q) = _
  rw [shapeCast_self]

/-- The host's product at (R, q): the same sum over the whole array's row. -/
theorem prod_apply (X : FVec Ideal S100000x128 .f32) (w : FVec Ideal S128x64 .f32) (R : Fin 100000) (q : Fin 64) :
    prod X w (ix2 R q) = ∑ k : Fin 128, X (ix2 R k) * w (ix2 k q) :=
  Cert.Lib.PlainDotGeneral.dotGeneral_apply Cert.ReferenceIdeal.dot_S100000x128_S128x64_S100000x64_1_0_0_1_n_n rfl rfl rfl rfl rfl rfl none .single X w R q

/-- A block that holds rows b * 5000 … of X, against the whole weight, stores those rows of the product. -/
theorem block_eq (X : FVec Ideal S100000x128 .f32) (w : FVec Ideal S128x64 .f32)
    (xb : FVec Ideal S5000x128 .f32) (wb : FVec Ideal S128x64 .f32) (R : Fin 100000) (r : Fin 5000) (q : Fin 64)
    (hx : ∀ k : Fin 128, xb (ix2 r k) = X (ix2 R k))
    (hw : ∀ k : Fin 128, wb (ix2 k q) = w (ix2 k q)) :
    k4_pay1 (F := Ideal) xb wb (ix2 r q) = prod X w (ix2 R q) := by
  rw [pay_apply, prod_apply]
  exact Finset.sum_congr rfl fun k _ => by rw [hx k, hw k]

/-- The printed index maps over the grid: the left operand's and the output's block t is row block t, column block 0;
    the weight's block is always the whole weight. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem idx_onto : ∀ q0 : Fin 20, ∃ t : Fin cfg4.N, t.val = q0.val :=
  (by decide +kernel : ∀ q0 : Fin 20, ∃ t : Fin grid4.N, t.val = q0.val)

/-- What point t writes back is block t of the product of the two arrays as the launch finds them. -/
theorem flushed_eq (c : Dev nD) (t : Fin cfg4.N) :
    (dat4 V c).flushed 2 t = ((cfg4.win 2).blk t).view.read (Elt Ideal) (prod (V c main_v86) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨e00, e01, e10, e11, e20, e21⟩ := idx_facts t
  funext j
  obtain ⟨r, q, rfl⟩ : ∃ (r : Fin 5000) (q : Fin 64), j = ix2 r q := ⟨j 0, j 1, eq_ix2 j⟩
  have hr : r.val < 5000 := r.isLt
  have hq : q.val < 64 := q.isLt
  have ht : t.val < 20 := Nat.lt_of_lt_of_eq t.isLt N_4
  show k4_pay1 (F := Ideal) (iblk4 V c 0 t) (iblk4 V c 1 t) (ix2 r q)
    = prod (V c main_v86) (V c main_arg7) (((cfg4.win 2).blk t).view.emb (ix2 r q))
  have hout : ((cfg4.win 2).blk t).view.emb (ix2 r q) = ix2 (⟨t.val * 5000 + r.val, by omega⟩ : Fin 100000) q := by
    funext a; apply Fin.ext
    match a with
    | ⟨0, _⟩ => show win4_2.index t (0 : Fin 2) * 5000 + 1 * r.val = t.val * 5000 + r.val; omega
    | ⟨1, _⟩ => show win4_2.index t (1 : Fin 2) * 64 + 1 * q.val = q.val; omega
  rw [hout]
  refine block_eq (V c main_v86) (V c main_arg7) (iblk4 V c 0 t) (iblk4 V c 1 t) ⟨t.val * 5000 + r.val, by omega⟩ r q ?_ ?_
  · intro k
    have hk : k.val < 128 := k.isLt
    show V c main_v86 (((cfg4.win 0).blk t).view.emb (ix2 r k)) = V c main_v86 (ix2 (⟨t.val * 5000 + r.val, by omega⟩ : Fin 100000) k)
    refine congrArg (V c main_v86) (funext fun a => Fin.ext ?_)
    match a with
    | ⟨0, _⟩ => show win4_0.index t (0 : Fin 2) * 5000 + 1 * r.val = t.val * 5000 + r.val; omega
    | ⟨1, _⟩ => show win4_0.index t (1 : Fin 2) * 128 + 1 * k.val = k.val; omega
  · intro k
    have hk : k.val < 128 := k.isLt
    show V c main_arg7 (((cfg4.win 1).blk t).view.emb (ix2 k q)) = V c main_arg7 (ix2 k q)
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 64 + 1 * q.val = q.val; omega

/-- An index of the output array is in point t's block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v87).slice (win4_2.rect t)).set ↔ _
  rw [View.set_slice_whole, Rect.mem_set_unit]
  exact Iff.rfl

/-- The twenty row blocks tile the array: row R is in block R / 5000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after the launch: the host's product of the two arrays the launch was entered with. -/
theorem final (c : Dev nD) : (dat4 V c).arrAt 2 cfg4.N = prod (V c main_v86) (V c main_arg7) :=
  (dat4 V c).arrAt_eq_of_cover 2 (prod (V c main_v86) (V c main_arg7)) (fun t _ => flushed_eq V c t) cover

end Cert.Gcn.Region4

end
-- ==== Proof.Region5.lean ====
/-
  The last epilogue: what the sixth launch leaves in its output array.

  The launch walks the 100000 rows of the aggregated output features in twenty blocks of 5000 rows; at each it loads
  the block and the one-row bias, adds the bias row to every row of the block, and writes the block back as block t of
  the output (the last layer has no rectifier). Entry (r, q) of what it stores is block (r, q) + bias (0, q), and row r
  of block t is row t * 5000 + r of the array, so every block is the restriction of ONE function of the two arrays as
  the launch finds them: the bias row repeated down the rows and added to the array, as the host would compute it. The
  twenty blocks tile the rows, so the output array ends holding exactly that.
-/
import proofs.«137574_j45131516346758_1_alg».proof.Proof.Gen.KernelIdeal.Frame
import proofs.«137574_j45131516346758_1_alg».proof.ReferenceIdeal
import proofs.«137574_j45131516346758_1_alg».proof.Proof.Gen.ReferenceIdeal
import proofs.«137574_j45131516346758_1_alg».proof.Proof.LibHostRows
import Idealize.ShloMosaic.Lib.Pipeline.Value
import Idealize.ShloMosaic.Lib.ValueIdx
import Idealize.ShloMosaic.Lib.ValueLayout

set_option maxRecDepth 16384

noncomputable section

namespace Cert.Gcn.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's bias add on a 100000 x 64 array with a one-row bias: the function every block restricts. -/
abbrev biasAdd (A : (⟨S100000x64, .f32⟩ : BufTy).Contents (Elt Ideal)) (brow : (⟨S1x64, .f32⟩ : BufTy).Contents (Elt Ideal)) :
    (⟨S100000x64, .f32⟩ : BufTy).Contents (Elt Ideal) :=
  addf (F := Ideal) (s := S100000x64) (φ := .f32) A (broadcastInDim S100000x64 ![0, 1] Cert.ReferenceIdeal.Gen.bcast_S1x64_S100000x64_0_1 brow)

/-- The body's stored value at (r, q). -/
theorem pay_apply (ab : FVec Ideal S5000x64 .f32) (bb : FVec Ideal S1x64 .f32) (r : Fin 5000) (q : Fin 64) :
    k5_pay1 (F := Ideal) ab bb (ix2 r q) = ab (ix2 r q) + bb (ix2 (0 : Fin 1) q) := by
  unfold k5_pay1
  show shapeCast S5000x64 ab shapeCasts_S5000x64_S5000x64 (ix2 r q)
      + broadcastTo S5000x64 (shapeCast S1x64 bb shapeCasts_S1x64_S1x64) broadcasts_S1x64_S5000x64 (ix2 r q) = _
  rw [shapeCast_self, shapeCast_self, broadcastTo_1b_ab_apply]

/-- The host's function at (R, q). -/
theorem biasAdd_apply (A : FVec Ideal S100000x64 .f32) (brow : FVec Ideal S1x64 .f32) (R : Fin 100000) (q : Fin 64) :
    biasAdd A brow (ix2 R q) = A (ix2 R q) + brow (ix2 (0 : Fin 1) q) := by
  show A (ix2 R q) + broadcastInDim S100000x64 ![0, 1] Cert.ReferenceIdeal.Gen.bcast_S1x64_S100000x64_0_1 brow (ix2 R q) = _
  rw [Cert.Lib.HostRows.bcast_1b_ab_apply]

/-- A block that holds rows of A from row R on, against the whole bias row, stores that row of the host's function. -/
theorem block_eq (A : FVec Ideal S100000x64 .f32) (brow : FVec Ideal S1x64 .f32)
    (ab : FVec Ideal S5000x64 .f32) (bb : FVec Ideal S1x64 .f32) (R : Fin 100000) (r : Fin 5000) (q : Fin 64)
    (ha : ab (ix2 r q) = A (ix2 R q)) (hb : bb (ix2 (0 : Fin 1) q) = brow (ix2 (0 : Fin 1) q)) :
    k5_pay1 (F := Ideal) ab bb (ix2 r q) = biasAdd A brow (ix2 R q) := by
  rw [pay_apply, biasAdd_apply, ha, hb]

/-- The printed index maps over the grid: the aggregate's and the output's block t is row block t, column block 0;
    the bias row's block is always the whole row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every row block is some point's. -/
theorem idx_onto : ∀ q0 : Fin 20, ∃ t : Fin cfg5.N, t.val = q0.val :=
  (by decide +kernel : ∀ q0 : Fin 20, ∃ t : Fin grid5.N, t.val = q0.val)

/-- What point t writes back is block t of the host's function of the two arrays as the launch finds them. -/
theorem flushed_eq (c : Dev nD) (t : Fin cfg5.N) :
    (dat5 V c).flushed 2 t = ((cfg5.win 2).blk t).view.read (Elt Ideal) (biasAdd (V c main_v123) (V c main_v124)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e00, e01, e10, e11, e20, e21⟩ := idx_facts t
  funext j
  obtain ⟨r, q, rfl⟩ : ∃ (r : Fin 5000) (q : Fin 64), j = ix2 r q := ⟨j 0, j 1, eq_ix2 j⟩
  have hr : r.val < 5000 := r.isLt
  have hq : q.val < 64 := q.isLt
  have ht : t.val < 20 := Nat.lt_of_lt_of_eq t.isLt N_5
  show k5_pay1 (F := Ideal) (iblk5 V c 0 t) (iblk5 V c 1 t) (ix2 r q)
    = biasAdd (V c main_v123) (V c main_v124) (((cfg5.win 2).blk t).view.emb (ix2 r q))
  have hout : ((cfg5.win 2).blk t).view.emb (ix2 r q) = ix2 (⟨t.val * 5000 + r.val, by omega⟩ : Fin 100000) q := by
    funext a; apply Fin.ext
    match a with
    | ⟨0, _⟩ => show win5_2.index t (0 : Fin 2) * 5000 + 1 * r.val = t.val * 5000 + r.val; omega
    | ⟨1, _⟩ => show win5_2.index t (1 : Fin 2) * 64 + 1 * q.val = q.val; omega
  rw [hout]
  refine block_eq (V c main_v123) (V c main_v124) (iblk5 V c 0 t) (iblk5 V c 1 t) ⟨t.val * 5000 + r.val, by omega⟩ r q ?_ ?_
  · show V c main_v123 (((cfg5.win 0).blk t).view.emb (ix2 r q)) = V c main_v123 (ix2 (⟨t.val * 5000 + r.val, by omega⟩ : Fin 100000) q)
    refine congrArg (V c main_v123) (funext fun a => Fin.ext ?_)
    match a with
    | ⟨0, _⟩ => show win5_0.index t (0 : Fin 2) * 5000 + 1 * r.val = t.val * 5000 + r.val; omega
    | ⟨1, _⟩ => show win5_0.index t (1 : Fin 2) * 64 + 1 * q.val = q.val; omega
  · show V c main_v124 (((cfg5.win 1).blk t).view.emb (ix2 (0 : Fin 1) q)) = V c main_v124 (ix2 (0 : Fin 1) q)
    refine congrArg (V c main_v124) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega

/-- An index of the output array is in point t's block iff each coordinate is in the block's range on its axis. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v125).slice (win5_2.rect t)).set ↔ _
  rw [View.set_slice_whole, Rect.mem_set_unit]
  exact Iff.rfl

/-- The twenty row blocks tile the array: row R is in block R / 5000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after the launch: the host's bias add of the two arrays the launch was entered with. -/
theorem final (c : Dev nD) : (dat5 V c).arrAt 2 cfg5.N = biasAdd (V c main_v123) (V c main_v124) :=
  (dat5 V c).arrAt_eq_of_cover 2 (biasAdd (V c main_v123) (V c main_v124)) (fun t _ => flushed_eq V c t) cover

end Cert.Gcn.Region5

end
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.Carry.lean ====
/-
  Buffers that are carried unchanged through the program.

  The source and destination lists with their self loops, and the edge weights with the loops' ones, are computed once,
  before the first launch, and read again by every layer; the weight and bias arguments are read by later launches
  and host lines. Between their writing and those reads lie host stretches that write other buffers and launches
  whose arrays are other buffers. A host line leaves alone every buffer it does not write, and a launch every buffer
  that is not one of its arrays; so each of these buffers, read at a later boundary of the run, holds what it held at
  the first boundary, and an argument holds what the program was launched with.
-/
import proofs.«137574_j45131516346758_1_alg».proof.Proof.Gen.KernelIdeal.Frame
import proofs.«137574_j45131516346758_1_alg».proof.Proof.LibAfterAppend
import Idealize.ShloMosaic.PureOps.Ideal

set_option maxRecDepth 16384

noncomputable section

namespace Cert.Gcn.Carry

open Cert.KernelIdeal Cert.KernelIdeal.Gen
open Idealize.ShloMosaic Idealize.ShloMosaic.TcCoe Idealize.ShloMosaic.StableHlo Idealize.SL.Sem
open Cert.Lib.AfterAppend

variable (m : (ℓ : Loc nD τ sig) → Buf (Elt Ideal) ℓ) (ρ : Dev nD → PrngReg) (c : Dev nD) (r : Ref sig .tc)

/-! ## Through the host stretches -/

/-- Through the lines before the first launch, from the launch memory. -/
theorem W1_launch (h : ∀ op ∈ (hostOps0 : List (HloOp τ sig (Elt Ideal))), Proc.devRef (τ := τ) .tc r ∉ op.writes) :
    W1 m ρ c (Proc.devRef .tc r) = m ((c : Thread nD τ).loc r) :=
  after_kept hostOps0 (W0 m ρ c) r h

/-- Through the first layer's three stretches. -/
theorem W5_W2 (h1 : ∀ op ∈ (hostOps1 : List (HloOp τ sig (Elt Ideal))), Proc.devRef (τ := τ) .tc r ∉ op.writes)
    (h2 : ∀ op ∈ (hostOps1_1 : List (HloOp τ sig (Elt Ideal))), Proc.devRef (τ := τ) .tc r ∉ op.writes)
    (h3 : ∀ op ∈ (hostOps1_2 : List (HloOp τ sig (Elt Ideal))), Proc.devRef (τ := τ) .tc r ∉ op.writes) :
    W5 m ρ c (Proc.devRef .tc r) = W2 m ρ c (Proc.devRef .tc r) :=
  (after_kept hostOps1_2 (W4 m ρ c) r h3).trans ((after_kept hostOps1_1 (W3 m ρ c) r h2).trans (after_kept hostOps1 (W2 m ρ c) r h1))

/-- Through the second layer's three stretches. -/
theorem W10_W7 (h1 : ∀ op ∈ (hostOps3 : List (HloOp τ sig (Elt Ideal))), Proc.devRef (τ := τ) .tc r ∉ op.writes)
    (h2 : ∀ op ∈ (hostOps3_1 : List (HloOp τ sig (Elt Ideal))), Proc.devRef (τ := τ) .tc r ∉ op.writes)
    (h3 : ∀ op ∈ (hostOps3_2 : List (HloOp τ sig (Elt Ideal))), Proc.devRef (τ := τ) .tc r ∉ op.writes) :
    W10 m ρ c (Proc.devRef .tc r) = W7 m ρ c (Proc.devRef .tc r) :=
  (after_kept hostOps3_2 (W9 m ρ c) r h3).trans ((after_kept hostOps3_1 (W8 m ρ c) r h2).trans (after_kept hostOps3 (W7 m ρ c) r h1))

/-- Through the third layer's three stretches. -/
theorem W15_W12 (h1 : ∀ op ∈ (hostOps5 : List (HloOp τ sig (Elt Ideal))), Proc.devRef (τ := τ) .tc r ∉ op.writes)
    (h2 : ∀ op ∈ (hostOps5_1 : List (HloOp τ sig (Elt Ideal))), Proc.devRef (τ := τ) .tc r ∉ op.writes)
    (h3 : ∀ op ∈ (hostOps5_2 : List (HloOp τ sig (Elt Ideal))), Proc.devRef (τ := τ) .tc r ∉ op.writes) :
    W15 m ρ c (Proc.devRef .tc r) = W12 m ρ c (Proc.devRef .tc r) :=
  (after_kept hostOps5_2 (W14 m ρ c) r h3).trans ((after_kept hostOps5_1 (W13 m ρ c) r h2).trans (after_kept hostOps5 (W12 m ρ c) r h1))

/-! ## The edge lists and the edge weights, back to the first boundary -/

theorem src_W2 : W2 m ρ c (Proc.devRef .tc main_v3) = W1 m ρ c (Proc.devRef .tc main_v3) := W2_of_ne m ρ c main_v3 (by decide)
theorem dst_W2 : W2 m ρ c (Proc.devRef .tc main_v6) = W1 m ρ c (Proc.devRef .tc main_v6) := W2_of_ne m ρ c main_v6 (by decide)
theorem wgt_W2 : W2 m ρ c (Proc.devRef .tc main_v8) = W1 m ρ c (Proc.devRef .tc main_v8) := W2_of_ne m ρ c main_v8 (by decide)

theorem src_W7 : W7 m ρ c (Proc.devRef .tc main_v3) = W1 m ρ c (Proc.devRef .tc main_v3) :=
  (W7_of_ne m ρ c main_v3 (by decide)).trans ((W6_of_ne m ρ c main_v3 (by decide)).trans
    ((W5_W2 m ρ c main_v3 (by not_written) (by not_written) (by not_written)).trans (src_W2 m ρ c)))
theorem dst_W7 : W7 m ρ c (Proc.devRef .tc main_v6) = W1 m ρ c (Proc.devRef .tc main_v6) :=
  (W7_of_ne m ρ c main_v6 (by decide)).trans ((W6_of_ne m ρ c main_v6 (by decide)).trans
    ((W5_W2 m ρ c main_v6 (by not_written) (by not_written) (by not_written)).trans (dst_W2 m ρ c)))
theorem wgt_W7 : W7 m ρ c (Proc.devRef .tc main_v8) = W1 m ρ c (Proc.devRef .tc main_v8) :=
  (W7_of_ne m ρ c main_v8 (by decide)).trans ((W6_of_ne m ρ c main_v8 (by decide)).trans
    ((W5_W2 m ρ c main_v8 (by not_written) (by not_written) (by not_written)).trans (wgt_W2 m ρ c)))

theorem src_W12 : W12 m ρ c (Proc.devRef .tc main_v3) = W1 m ρ c (Proc.devRef .tc main_v3) :=
  (W12_of_ne m ρ c main_v3 (by decide)).trans ((W11_of_ne m ρ c main_v3 (by decide)).trans
    ((W10_W7 m ρ c main_v3 (by not_written) (by not_written) (by not_written)).trans (src_W7 m ρ c)))
theorem dst_W12 : W12 m ρ c (Proc.devRef .tc main_v6) = W1 m ρ c (Proc.devRef .tc main_v6) :=
  (W12_of_ne m ρ c main_v6 (by decide)).trans ((W11_of_ne m ρ c main_v6 (by decide)).trans
    ((W10_W7 m ρ c main_v6 (by not_written) (by not_written) (by not_written)).trans (dst_W7 m ρ c)))
theorem wgt_W12 : W12 m ρ c (Proc.devRef .tc main_v8) = W1 m ρ c (Proc.devRef .tc main_v8) :=
  (W12_of_ne m ρ c main_v8 (by decide)).trans ((W11_of_ne m ρ c main_v8 (by decide)).trans
    ((W10_W7 m ρ c main_v8 (by not_written) (by not_written) (by not_written)).trans (wgt_W7 m ρ c)))

/-! ## The arguments, where a launch or a host line reads them -/

/-- The features and the first weight, as the first launch finds them. -/
theorem arg0_W1 : W1 m ρ c (Proc.devRef .tc main_arg0) = m ((c : Thread nD τ).loc main_arg0) := W1_launch m ρ c main_arg0 (by not_written)
theorem arg3_W1 : W1 m ρ c (Proc.devRef .tc main_arg3) = m ((c : Thread nD τ).loc main_arg3) := W1_launch m ρ c main_arg3 (by not_written)

/-- The first bias, as the first layer's last host line finds it. -/
theorem arg4_W2 : W2 m ρ c (Proc.devRef .tc main_arg4) = m ((c : Thread nD τ).loc main_arg4) :=
  (W2_of_ne m ρ c main_arg4 (by decide)).trans (W1_launch m ρ c main_arg4 (by not_written))

/-- The second weight, as the third launch finds it. -/
theorem arg5_W6 : W6 m ρ c (Proc.devRef .tc main_arg5) = m ((c : Thread nD τ).loc main_arg5) :=
  (W6_of_ne m ρ c main_arg5 (by decide)).trans ((W5_W2 m ρ c main_arg5 (by not_written) (by not_written) (by not_written)).trans
    ((W2_of_ne m ρ c main_arg5 (by decide)).trans (W1_launch m ρ c main_arg5 (by not_written))))

/-- The second bias, as the second layer's last host line finds it. -/
theorem arg6_W7 : W7 m ρ c (Proc.devRef .tc main_arg6) = m ((c : Thread nD τ).loc main_arg6) :=
  (W7_of_ne m ρ c main_arg6 (by decide)).trans ((W6_of_ne m ρ c main_arg6 (by decide)).trans
    ((W5_W2 m ρ c main_arg6 (by not_written) (by not_written) (by not_written)).trans
      ((W2_of_ne m ρ c main_arg6 (by decide)).trans (W1_launch m ρ c main_arg6 (by not_written)))))

/-- The third weight, as the fifth launch finds it. -/
theorem arg7_W11 : W11 m ρ c (Proc.devRef .tc main_arg7) = m ((c : Thread nD τ).loc main_arg7) :=
  (W11_of_ne m ρ c main_arg7 (by decide)).trans ((W10_W7 m ρ c main_arg7 (by not_written) (by not_written) (by not_written)).trans
    ((W7_of_ne m ρ c main_arg7 (by decide)).trans ((W6_of_ne m ρ c main_arg7 (by decide)).trans
      ((W5_W2 m ρ c main_arg7 (by not_written) (by not_written) (by not_written)).trans
        ((W2_of_ne m ρ c main_arg7 (by decide)).trans (W1_launch m ρ c main_arg7 (by not_written)))))))

/-- The third bias, as the third layer's last host line finds it. -/
theorem arg8_W12 : W12 m ρ c (Proc.devRef .tc main_arg8) = m ((c : Thread nD τ).loc main_arg8) :=
  (W12_of_ne m ρ c main_arg8 (by decide)).trans ((W11_of_ne m ρ c main_arg8 (by decide)).trans
    ((W10_W7 m ρ c main_arg8 (by not_written) (by not_written) (by not_written)).trans
      ((W7_of_ne m ρ c main_arg8 (by decide)).trans ((W6_of_ne m ρ c main_arg8 (by decide)).trans
        ((W5_W2 m ρ c main_arg8 (by not_written) (by not_written) (by not_written)).trans
          ((W2_of_ne m ρ c main_arg8 (by decide)).trans (W1_launch m ρ c main_arg8 (by not_written))))))))

end Cert.Gcn.Carry

end
-- ==== Proof.Edges.lean ====
/-
  The edge lists and the edge weights, as both programs compute them.

  Both programs begin with the same ten host lines: the two rows of the edge index are sliced out and flattened, the
  node numbers 0 … 99999 are appended to each as self loops, and a weight of one per self loop is appended to the
  edge weights. The kernel's program runs these lines before its first launch; read at the boundary where that launch
  is entered, each of the three buffers holds the same composition of operations of the edge arguments that the
  reference's stage of the same number names.
-/
import proofs.«137574_j45131516346758_1_alg».proof.Proof.Gen.KernelIdeal.Frame
import proofs.«137574_j45131516346758_1_alg».proof.Proof.Gen.ReferenceIdeal.Read
import Idealize.ShloMosaic.Lib.StableHlo.Run
import Idealize.ShloMosaic.PureOps.Ideal

set_option maxRecDepth 16384

noncomputable section

namespace Cert.Gcn.Edges

open Cert.KernelIdeal Cert.KernelIdeal.Gen
open Idealize.ShloMosaic Idealize.ShloMosaic.TcCoe Idealize.ShloMosaic.StableHlo Idealize.SL.Sem

/-- The source list after the first ten lines, from any contents. -/
theorem src_of (Wv : Valuation τ sig (Elt Ideal)) :
    StableHlo.after (hostOps0 : List (HloOp τ sig (Elt Ideal))) Wv (Proc.devRef .tc main_v3)
      = Cert.ReferenceIdeal.Read.val_main_v3 (F := Ideal) (Wv (Proc.devRef .tc main_arg1)) := by
  after_results
  rfl

/-- The destination list after the first ten lines, from any contents. -/
theorem dst_of (Wv : Valuation τ sig (Elt Ideal)) :
    StableHlo.after (hostOps0 : List (HloOp τ sig (Elt Ideal))) Wv (Proc.devRef .tc main_v6)
      = Cert.ReferenceIdeal.Read.val_main_v6 (F := Ideal) (Wv (Proc.devRef .tc main_arg1)) := by
  after_results
  rfl

/-- The edge weights with the self loops' ones after the first ten lines, from any contents. -/
theorem wgt_of (Wv : Valuation τ sig (Elt Ideal)) :
    StableHlo.after (hostOps0 : List (HloOp τ sig (Elt Ideal))) Wv (Proc.devRef .tc main_v8)
      = Cert.ReferenceIdeal.Read.val_main_v8 (F := Ideal) (Wv (Proc.devRef .tc main_arg2)) := by
  after_results
  rfl

variable (m : (ℓ : Loc nD τ sig) → Buf (Elt Ideal) ℓ) (ρ : Dev nD → PrngReg) (c : Dev nD)

/-- At the first launch's entry the source list is the reference's stage of the edge index. -/
theorem src_W1 : W1 m ρ c (Proc.devRef .tc main_v3)
    = Cert.ReferenceIdeal.Read.val_main_v3 (F := Ideal) (m ((c : Thread nD τ).loc main_arg1)) := src_of (W0 m ρ c)

/-- At the first launch's entry the destination list is the reference's stage of the edge index. -/
theorem dst_W1 : W1 m ρ c (Proc.devRef .tc main_v6)
    = Cert.ReferenceIdeal.Read.val_main_v6 (F := Ideal) (m ((c : Thread nD τ).loc main_arg1)) := dst_of (W0 m ρ c)

/-- At the first launch's entry the weights are the reference's stage of the edge weights. -/
theorem wgt_W1 : W1 m ρ c (Proc.devRef .tc main_v8)
    = Cert.ReferenceIdeal.Read.val_main_v8 (F := Ideal) (m ((c : Thread nD τ).loc main_arg2)) := wgt_of (W0 m ρ c)

end Cert.Gcn.Edges

end
-- ==== Proof.LibRowLayout.lean ====
/-
  A vector laid out as a one-row matrix, two spellings.

  A `[n]` vector can be made a `[1, n]` matrix by a reshape or by a broadcast along a new leading axis
  (`broadcast_in_dim` with `dims = [1]`). Both read entry `k` of the vector at `(0, k)`, so they are the same matrix,
  for any element type and any length other than one (at length one the broadcast's unit-axis rule reads entry `0`,
  which is again the same entry, but the statement here leaves that case out).
-/
import Idealize.ShloMosaic.Lib.Pipeline.Value

namespace Cert.Lib.RowLayout

open Idealize.ShloMosaic

/-- `shapeCast [1, n] v = broadcastInDim [1, n] ![1] v` for a vector `v` of length `n ≠ 1`: a program that reshapes a
    bias vector to a row and one that broadcasts it along a new leading axis hold the same row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  exact (shapeCast_addUnit_apply ![n] v hc j).trans
    (broadcastInDim_apply (![1] : Fin 1 → Fin 2) hb v j (fun a => j a.succ)
      (fun a => by match a with | ⟨0, _⟩ => exact (if_neg hn).symm)).symm

end Cert.Lib.RowLayout
-- ==== Proof.HostAgg1.lean ====
/-
  Layer 1's host lines: the normalised aggregation and the bias row.

  Between the dense transform and the epilogue the program computes, on the host, each node's weighted in-degree
  (the edge weights scattered to their destinations), its inverse square root where the degree is positive and zero
  elsewhere, the edge normalisation (that factor gathered at both endpoints, times the weight), the transformed
  features gathered at the sources and scaled by it, and their sum scattered to the destinations; and it lays the
  layer's bias out as one row. The reference's program does the same with the same operations in the same order. So
  if, at the boundary where these lines start, the transformed features, the two edge lists and the weights are the
  reference's stages, then after them the aggregate is the reference's aggregation stage. The bias row is a reshape
  here and a broadcast along a new leading axis there: the same row.
-/
import proofs.«137574_j45131516346758_1_alg».proof.Proof.Gen.KernelIdeal.Frame
import proofs.«137574_j45131516346758_1_alg».proof.Proof.Gen.ReferenceIdeal.Read
import proofs.«137574_j45131516346758_1_alg».proof.Proof.LibRowLayout
import Idealize.ShloMosaic.Lib.StableHlo.Run
import Idealize.ShloMosaic.PureOps.Ideal

set_option maxRecDepth 16384

noncomputable section

namespace Cert.Gcn.HostAgg1

open Cert.KernelIdeal Cert.KernelIdeal.Gen
open Idealize.ShloMosaic Idealize.ShloMosaic.TcCoe Idealize.ShloMosaic.StableHlo Idealize.SL.Sem

/-- The call that puts zero where the degree is not positive: its three lines, spelt over typed references, are three
    plain operations on the same buffers (carrying a value to a buffer's own type and back changes nothing). -/
theorem where_plain : (hostOps1_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v14 main_v15 main_call0_v1 main_v16 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-- After the layer's host lines the aggregate is the reference's aggregation stage, given the reference's stages at
    the buffers the lines read. -/
theorem agg_of (Wv : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S128x128, .f32⟩ : BufTy).Contents (Elt Ideal))
    (hh : Wv (Proc.devRef .tc main_v9) = Cert.ReferenceIdeal.Read.val_main_v9 (F := Ideal) x0 x3)
    (hs : Wv (Proc.devRef .tc main_v3) = Cert.ReferenceIdeal.Read.val_main_v3 (F := Ideal) x1)
    (hd : Wv (Proc.devRef .tc main_v6) = Cert.ReferenceIdeal.Read.val_main_v6 (F := Ideal) x1)
    (hw : Wv (Proc.devRef .tc main_v8) = Cert.ReferenceIdeal.Read.val_main_v8 (F := Ideal) x2) :
    StableHlo.after (hostOps1_2 : List (HloOp τ sig (Elt Ideal))) (StableHlo.after (hostOps1_1 : List (HloOp τ sig (Elt Ideal)))
        (StableHlo.after (hostOps1 : List (HloOp τ sig (Elt Ideal))) Wv)) (Proc.devRef .tc main_v45)
      = Cert.ReferenceIdeal.Read.val_main_v45 (F := Ideal) x0 x1 x2 x3 := by
  rw [where_plain]
  after_results_simp
  rw [hh, hs, hd, hw]
  rfl

/-- After the layer's host lines the bias row is the bias laid along a new leading axis. -/
theorem row_of (Wv : Valuation τ sig (Elt Ideal)) :
    StableHlo.after (hostOps1_2 : List (HloOp τ sig (Elt Ideal))) (StableHlo.after (hostOps1_1 : List (HloOp τ sig (Elt Ideal)))
        (StableHlo.after (hostOps1 : List (HloOp τ sig (Elt Ideal))) Wv)) (Proc.devRef .tc main_v46)
      = Cert.ReferenceIdeal.Read.val_main_v46 (F := Ideal) (Wv (Proc.devRef .tc main_arg4)) := by
  rw [where_plain]
  after_results_simp
  exact Cert.Lib.RowLayout.shapeCast_eq_broadcastInDim (n := 128) (by decide) _ _ _

end Cert.Gcn.HostAgg1

end
-- ==== Proof.HostAgg2.lean ====
/-
  Layer 2's host lines: the normalised aggregation and the bias row.

  Between the dense transform and the epilogue the program computes, on the host, each node's weighted in-degree
  (the edge weights scattered to their destinations), its inverse square root where the degree is positive and zero
  elsewhere, the edge normalisation (that factor gathered at both endpoints, times the weight), the transformed
  features gathered at the sources and scaled by it, and their sum scattered to the destinations; and it lays the
  layer's bias out as one row. The reference's program does the same with the same operations in the same order. So
  if, at the boundary where these lines start, the transformed features, the two edge lists and the weights are the
  reference's stages, then after them the aggregate is the reference's aggregation stage. The bias row is a reshape
  here and a broadcast along a new leading axis there: the same row.
-/
import proofs.«137574_j45131516346758_1_alg».proof.Proof.Gen.KernelIdeal.Frame
import proofs.«137574_j45131516346758_1_alg».proof.Proof.Gen.ReferenceIdeal.Read
import proofs.«137574_j45131516346758_1_alg».proof.Proof.LibRowLayout
import Idealize.ShloMosaic.Lib.StableHlo.Run
import Idealize.ShloMosaic.PureOps.Ideal

set_option maxRecDepth 16384

noncomputable section

namespace Cert.Gcn.HostAgg2

open Cert.KernelIdeal Cert.KernelIdeal.Gen
open Idealize.ShloMosaic Idealize.ShloMosaic.TcCoe Idealize.ShloMosaic.StableHlo Idealize.SL.Sem

/-- The call that puts zero where the degree is not positive: its three lines, spelt over typed references, are three
    plain operations on the same buffers (carrying a value to a buffer's own type and back changes nothing). -/
theorem where_plain : (hostOps3_1 : List (HloOp τ sig (Elt Ideal))) =
    [ StableHlo.unary main_cst_11 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.ternary main_v53 main_v54 main_call1_v1 main_v55 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-- After the layer's host lines the aggregate is the reference's aggregation stage, given the reference's stages at
    the buffers the lines read. -/
theorem agg_of (Wv : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (hh : Wv (Proc.devRef .tc main_v48) = Cert.ReferenceIdeal.Read.val_main_v50 (F := Ideal) x0 x1 x2 x3 x4 x5)
    (hs : Wv (Proc.devRef .tc main_v3) = Cert.ReferenceIdeal.Read.val_main_v3 (F := Ideal) x1)
    (hd : Wv (Proc.devRef .tc main_v6) = Cert.ReferenceIdeal.Read.val_main_v6 (F := Ideal) x1)
    (hw : Wv (Proc.devRef .tc main_v8) = Cert.ReferenceIdeal.Read.val_main_v8 (F := Ideal) x2) :
    StableHlo.after (hostOps3_2 : List (HloOp τ sig (Elt Ideal))) (StableHlo.after (hostOps3_1 : List (HloOp τ sig (Elt Ideal)))
        (StableHlo.after (hostOps3 : List (HloOp τ sig (Elt Ideal))) Wv)) (Proc.devRef .tc main_v84)
      = Cert.ReferenceIdeal.Read.val_main_v86 (F := Ideal) x0 x1 x2 x3 x4 x5 := by
  rw [where_plain]
  after_results_simp
  rw [hh, hs, hd, hw]
  rfl

/-- After the layer's host lines the bias row is the bias laid along a new leading axis. -/
theorem row_of (Wv : Valuation τ sig (Elt Ideal)) :
    StableHlo.after (hostOps3_2 : List (HloOp τ sig (Elt Ideal))) (StableHlo.after (hostOps3_1 : List (HloOp τ sig (Elt Ideal)))
        (StableHlo.after (hostOps3 : List (HloOp τ sig (Elt Ideal))) Wv)) (Proc.devRef .tc main_v85)
      = Cert.ReferenceIdeal.Read.val_main_v87 (F := Ideal) (Wv (Proc.devRef .tc main_arg6)) := by
  rw [where_plain]
  after_results_simp
  exact Cert.Lib.RowLayout.shapeCast_eq_broadcastInDim (n := 128) (by decide) _ _ _

end Cert.Gcn.HostAgg2

end
-- ==== Proof.HostAgg3.lean ====
/-
  Layer 3's host lines: the normalised aggregation and the bias row.

  Between the dense transform and the epilogue the program computes, on the host, each node's weighted in-degree
  (the edge weights scattered to their destinations), its inverse square root where the degree is positive and zero
  elsewhere, the edge normalisation (that factor gathered at both endpoints, times the weight), the transformed
  features gathered at the sources and scaled by it, and their sum scattered to the destinations; and it lays the
  layer's bias out as one row. The reference's program does the same with the same operations in the same order. So
  if, at the boundary where these lines start, the transformed features, the two edge lists and the weights are the
  reference's stages, then after them the aggregate is the reference's aggregation stage. The bias row is a reshape
  here and a broadcast along a new leading axis there: the same row.
-/
import proofs.«137574_j45131516346758_1_alg».proof.Proof.Gen.KernelIdeal.Frame
import proofs.«137574_j45131516346758_1_alg».proof.Proof.Gen.ReferenceIdeal.Read
import proofs.«137574_j45131516346758_1_alg».proof.Proof.LibRowLayout
import Idealize.ShloMosaic.Lib.StableHlo.Run
import Idealize.ShloMosaic.PureOps.Ideal

set_option maxRecDepth 16384

noncomputable section

namespace Cert.Gcn.HostAgg3

open Cert.KernelIdeal Cert.KernelIdeal.Gen
open Idealize.ShloMosaic Idealize.ShloMosaic.TcCoe Idealize.ShloMosaic.StableHlo Idealize.SL.Sem

/-- The call that puts zero where the degree is not positive: its three lines, spelt over typed references, are three
    plain operations on the same buffers (carrying a value to a buffer's own type and back changes nothing). -/
theorem where_plain : (hostOps5_1 : List (HloOp τ sig (Elt Ideal))) =
    [ StableHlo.unary main_cst_21 main_call2_v0 (id : (⟨S_, .f32⟩ : BufTy).Contents (Elt Ideal) → (⟨S_, .f32⟩ : BufTy).Contents (Elt Ideal)),
      StableHlo.unary main_call2_v0 main_call2_v1 (broadcastInDim S100000 ![] bcast_S_S100000 : (⟨S_, .f32⟩ : BufTy).Contents (Elt Ideal) → (⟨S100000, .f32⟩ : BufTy).Contents (Elt Ideal)),
      StableHlo.ternary main_v92 main_v93 main_call2_v1 main_v94 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-- After the layer's host lines the aggregate is the reference's aggregation stage, given the reference's stages at
    the buffers the lines read. -/
theorem agg_of (Wv : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x64, .f32⟩ : BufTy).Contents (Elt Ideal))
    (hh : Wv (Proc.devRef .tc main_v87) = Cert.ReferenceIdeal.Read.val_main_v91 (F := Ideal) x0 x1 x2 x3 x4 x5 x6 x7)
    (hs : Wv (Proc.devRef .tc main_v3) = Cert.ReferenceIdeal.Read.val_main_v3 (F := Ideal) x1)
    (hd : Wv (Proc.devRef .tc main_v6) = Cert.ReferenceIdeal.Read.val_main_v6 (F := Ideal) x1)
    (hw : Wv (Proc.devRef .tc main_v8) = Cert.ReferenceIdeal.Read.val_main_v8 (F := Ideal) x2) :
    StableHlo.after (hostOps5_2 : List (HloOp τ sig (Elt Ideal))) (StableHlo.after (hostOps5_1 : List (HloOp τ sig (Elt Ideal)))
        (StableHlo.after (hostOps5 : List (HloOp τ sig (Elt Ideal))) Wv)) (Proc.devRef .tc main_v123)
      = Cert.ReferenceIdeal.Read.val_main_v127 (F := Ideal) x0 x1 x2 x3 x4 x5 x6 x7 := by
  rw [where_plain]
  after_results_simp
  rw [hh, hs, hd, hw]
  rfl

/-- After the layer's host lines the bias row is the bias laid along a new leading axis. -/
theorem row_of (Wv : Valuation τ sig (Elt Ideal)) :
    StableHlo.after (hostOps5_2 : List (HloOp τ sig (Elt Ideal))) (StableHlo.after (hostOps5_1 : List (HloOp τ sig (Elt Ideal)))
        (StableHlo.after (hostOps5 : List (HloOp τ sig (Elt Ideal))) Wv)) (Proc.devRef .tc main_v124)
      = Cert.ReferenceIdeal.Read.val_main_v128 (F := Ideal) (Wv (Proc.devRef .tc main_arg8)) := by
  rw [where_plain]
  after_results_simp
  exact Cert.Lib.RowLayout.shapeCast_eq_broadcastInDim (n := 64) (by decide) _ _ _

end Cert.Gcn.HostAgg3

end
-- ==== Proof.Chain.lean ====
/-
  The kernel's program, boundary by boundary, against the reference's stages.

  Walk the run's boundaries in order. The first launch leaves the product of the features and the first weight: the
  reference's first product. The first layer's host lines turn it, with the edge lists and weights carried from the
  first boundary, into the reference's first aggregate, and lay out the first bias row; the second launch adds the row
  and rectifies: the reference's first hidden layer. The third launch multiplies that by the second weight, the second
  layer's host lines aggregate it, the fourth launch adds the second bias and rectifies: the second hidden layer. The
  fifth launch multiplies by the third weight, the third layer's host lines aggregate, and the last launch adds the
  third bias. At each step the buffer read holds the reference's stage of the same arguments, so at return the result
  buffer holds the reference's last stage of the nine arguments.
-/
import proofs.«137574_j45131516346758_1_alg».proof.Proof.Gen.KernelIdeal.Frame
import proofs.«137574_j45131516346758_1_alg».proof.Proof.Gen.ReferenceIdeal.Read
import proofs.«137574_j45131516346758_1_alg».proof.Proof.Region0
import proofs.«137574_j45131516346758_1_alg».proof.Proof.Region1
import proofs.«137574_j45131516346758_1_alg».proof.Proof.Region2
import proofs.«137574_j45131516346758_1_alg».proof.Proof.Region3
import proofs.«137574_j45131516346758_1_alg».proof.Proof.Region4
import proofs.«137574_j45131516346758_1_alg».proof.Proof.Region5
import proofs.«137574_j45131516346758_1_alg».proof.Proof.Carry
import proofs.«137574_j45131516346758_1_alg».proof.Proof.Edges
import proofs.«137574_j45131516346758_1_alg».proof.Proof.HostAgg1
import proofs.«137574_j45131516346758_1_alg».proof.Proof.HostAgg2
import proofs.«137574_j45131516346758_1_alg».proof.Proof.HostAgg3

set_option maxRecDepth 16384

noncomputable section

namespace Cert.Gcn.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first layer -/

/-- After the first launch: the features times the first weight. -/
theorem prod1 : W2 m ρ c (Proc.devRef .tc main_v9) = Cert.ReferenceIdeal.Read.val_main_v9 (F := Ideal) (m ((c : Thread nD τ).loc main_arg0)) (m ((c : Thread nD τ).loc main_arg3)) := by
  refine (W2_arr m ρ c 2).trans ((Cert.Gcn.Region0.final (V1 m ρ) c).trans ?_)
  show Cert.Gcn.Region0.prod (W1 m ρ c (Proc.devRef .tc main_arg0)) (W1 m ρ c (Proc.devRef .tc main_arg3)) = _
  rw [Cert.Gcn.Carry.arg0_W1, Cert.Gcn.Carry.arg3_W1]
  rfl

/-- After the first layer's host lines: the first aggregate. -/
theorem agg1 : W5 m ρ c (Proc.devRef .tc main_v45) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) :=
  Cert.Gcn.HostAgg1.agg_of (W2 m ρ c) (m ((c : Thread nD τ).loc main_arg0)) (m ((c : Thread nD τ).loc main_arg1)) (m ((c : Thread nD τ).loc main_arg2)) (m ((c : Thread nD τ).loc main_arg3)) (prod1 m ρ c)
    ((Cert.Gcn.Carry.src_W2 m ρ c).trans (Cert.Gcn.Edges.src_W1 m ρ c))
    ((Cert.Gcn.Carry.dst_W2 m ρ c).trans (Cert.Gcn.Edges.dst_W1 m ρ c))
    ((Cert.Gcn.Carry.wgt_W2 m ρ c).trans (Cert.Gcn.Edges.wgt_W1 m ρ c))

/-- After the first layer's host lines: the first bias as a row. -/
theorem row1 : W5 m ρ c (Proc.devRef .tc main_v46) = Cert.ReferenceIdeal.Read.val_main_v46 (F := Ideal) (m ((c : Thread nD τ).loc main_arg4)) :=
  (Cert.Gcn.HostAgg1.row_of (W2 m ρ c)).trans (congrArg (Cert.ReferenceIdeal.Read.val_main_v46 (F := Ideal)) (Cert.Gcn.Carry.arg4_W2 m ρ c))

/-- After the second launch: the first hidden layer. -/
theorem out1 : W6 m ρ c (Proc.devRef .tc main_v47) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.Gcn.Region1.final (V5 m ρ) c).trans ?_)
  show Cert.Gcn.Region1.biasRelu (W5 m ρ c (Proc.devRef .tc main_v45)) (W5 m ρ c (Proc.devRef .tc main_v46)) = _
  rw [agg1, row1]
  rfl

/-! ## The second layer -/

/-- After the third launch: the first hidden layer times the second weight. -/
theorem prod2 : W7 m ρ c (Proc.devRef .tc main_v48) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.Gcn.Region2.final (V6 m ρ) c).trans ?_)
  show Cert.Gcn.Region2.prod (W6 m ρ c (Proc.devRef .tc main_v47)) (W6 m ρ c (Proc.devRef .tc main_arg5)) = _
  rw [out1, Cert.Gcn.Carry.arg5_W6]
  rfl

/-- After the second layer's host lines: the second aggregate. -/
theorem agg2 : W10 m ρ c (Proc.devRef .tc main_v84) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Cert.Gcn.HostAgg2.agg_of (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (prod2 m ρ c)
    ((Cert.Gcn.Carry.src_W7 m ρ c).trans (Cert.Gcn.Edges.src_W1 m ρ c))
    ((Cert.Gcn.Carry.dst_W7 m ρ c).trans (Cert.Gcn.Edges.dst_W1 m ρ c))
    ((Cert.Gcn.Carry.wgt_W7 m ρ c).trans (Cert.Gcn.Edges.wgt_W1 m ρ c))

/-- After the second layer's host lines: the second bias as a row. -/
theorem row2 : W10 m ρ c (Proc.devRef .tc main_v85) = Cert.ReferenceIdeal.Read.val_main_v87 (F := Ideal) (m ((c : Thread nD τ).loc main_arg6)) :=
  (Cert.Gcn.HostAgg2.row_of (W7 m ρ c)).trans (congrArg (Cert.ReferenceIdeal.Read.val_main_v87 (F := Ideal)) (Cert.Gcn.Carry.arg6_W7 m ρ c))

/-- After the fourth launch: the second hidden layer. -/
theorem out2 : W11 m ρ c (Proc.devRef .tc main_v86) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 2).trans ((Cert.Gcn.Region3.final (V10 m ρ) c).trans ?_)
  show Cert.Gcn.Region3.biasRelu (W10 m ρ c (Proc.devRef .tc main_v84)) (W10 m ρ c (Proc.devRef .tc main_v85)) = _
  rw [agg2, row2]
  rfl

/-! ## The third layer -/

/-- After the fifth launch: the second hidden layer times the third weight. -/
theorem prod3 : W12 m ρ c (Proc.devRef .tc main_v87) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.Gcn.Region4.final (V11 m ρ) c).trans ?_)
  show Cert.Gcn.Region4.prod (W11 m ρ c (Proc.devRef .tc main_v86)) (W11 m ρ c (Proc.devRef .tc main_arg7)) = _
  rw [out2, Cert.Gcn.Carry.arg7_W11]
  rfl

/-- After the third layer's host lines: the third aggregate. -/
theorem agg3 : W15 m ρ c (Proc.devRef .tc main_v123) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Cert.Gcn.HostAgg3.agg_of (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (prod3 m ρ c)
    ((Cert.Gcn.Carry.src_W12 m ρ c).trans (Cert.Gcn.Edges.src_W1 m ρ c))
    ((Cert.Gcn.Carry.dst_W12 m ρ c).trans (Cert.Gcn.Edges.dst_W1 m ρ c))
    ((Cert.Gcn.Carry.wgt_W12 m ρ c).trans (Cert.Gcn.Edges.wgt_W1 m ρ c))

/-- After the third layer's host lines: the third bias as a row. -/
theorem row3 : W15 m ρ c (Proc.devRef .tc main_v124) = Cert.ReferenceIdeal.Read.val_main_v128 (F := Ideal) (m ((c : Thread nD τ).loc main_arg8)) :=
  (Cert.Gcn.HostAgg3.row_of (W12 m ρ c)).trans (congrArg (Cert.ReferenceIdeal.Read.val_main_v128 (F := Ideal)) (Cert.Gcn.Carry.arg8_W12 m ρ c))

/-- At return: the result buffer holds the reference's last stage of the nine arguments. -/
theorem result : W16 m ρ c (Proc.devRef .tc main_v125) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W16_arr m ρ c 2).trans ((Cert.Gcn.Region5.final (V15 m ρ) c).trans ?_)
  show Cert.Gcn.Region5.biasAdd (W15 m ρ c (Proc.devRef .tc main_v123)) (W15 m ρ c (Proc.devRef .tc main_v124)) = _
  rw [agg3, row3]
  rfl

end Cert.Gcn.Chain

end
-- ==== Proof.lean ====
/-
  A three-layer graph convolution: the kernel's program against its reference, on the extended reals.

  Each layer is a dense transform X W, a normalised aggregation over the edges with self loops, and a bias (with a
  rectifier after the first two). The reference computes all of it with host operations. The kernel's program computes
  the aggregation with the same host operations, and the dense transform and the bias-and-rectifier epilogue in
  launches tiled over twenty blocks of 5000 rows. On the extended reals a launch's rounding of its operands to a
  narrower format is the identity, a block product into a zero accumulator is the same sum over k as the host's
  product restricted to the block's rows, and the epilogue's block is the host's broadcast add and maximum restricted
  to those rows; the blocks tile the rows. So the two programs apply the same operations to the same values in the
  same order, and their results are equal element by element, for any arguments: no cancellation or distributivity
  is used, and the finiteness of the inputs is never needed.

  The frames of the two kernel programs are the generated ones; the reference's frame is its generated run with the
  result dropped. The idealization rewrote no operation, so there is nothing to preserve. For the value claim the
  common value is the reference's last stage of the kernel's arguments: the kernel's run ends with its result buffer
  at the run's last boundary, which is that stage (walked boundary by boundary), and the reference's run ends at the
  same stage of its own arguments, which agree with the kernel's.
-/
import proofs.«137574_j45131516346758_1_alg».proof.Defs
import proofs.«137574_j45131516346758_1_alg».proof.Proof.Gen.Kernel
import proofs.«137574_j45131516346758_1_alg».proof.Proof.Gen.Kernel.Frame
import proofs.«137574_j45131516346758_1_alg».proof.Proof.Gen.KernelIdeal
import proofs.«137574_j45131516346758_1_alg».proof.Proof.Gen.KernelIdeal.Frame
import proofs.«137574_j45131516346758_1_alg».proof.Proof.Gen.ReferenceIdeal
import proofs.«137574_j45131516346758_1_alg».proof.Proof.Gen.ReferenceIdeal.Run
import proofs.«137574_j45131516346758_1_alg».proof.Proof.Gen.ReferenceIdeal.Read
import proofs.«137574_j45131516346758_1_alg».proof.Proof.Gen.Pre_finite_inputs
import proofs.«137574_j45131516346758_1_alg».proof.Proof.KernelRun
import proofs.«137574_j45131516346758_1_alg».proof.Proof.Chain
import Idealize.ShloMosaic.Adequacy
import Idealize.ShloMosaic.Init

noncomputable section

namespace Cert.Proof

open Idealize.ShloMosaic Idealize.SL.Sem

/-- The kernel's program as printed runs, and leaves its arguments as launched. -/
theorem frame_kernel : Cert.frame_Kernel := fun m ρ _ => Cert.Kernel.Gen.frame m ρ

/-- The idealized kernel's program runs, and leaves its arguments as launched. -/
theorem frame_kernelIdeal : Cert.frame_KernelIdeal := fun m ρ _ => Cert.KernelIdeal.Gen.frame m ρ

/-- The idealized reference runs, and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel's program. -/
theorem preserves : Cert.preserves_Kernel_KernelIdeal := trivial

/-- From memories that agree on the nine arguments both idealized programs end with the reference's last stage of
    those arguments in their result buffers, and with the arguments as launched. -/
theorem algebraic : Cert.algebraic_KernelIdeal_ReferenceIdeal := by
  intro m ρ m' ρ' _ hagree
  refine ⟨fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.Chain.result m ρ c), (h c).2⟩) (Cert.Gcn.KernelRun.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v130_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
